-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S256x4096 : Shape := ⟨2, ![256, 4096]⟩
abbrev S256x32x128 : Shape := ⟨3, ![256, 32, 128]⟩
abbrev S256x32 : Shape := ⟨2, ![256, 32]⟩
abbrev S256x32x1 : Shape := ⟨3, ![256, 32, 1]⟩
abbrev S8192x4096 : Shape := ⟨2, ![8192, 4096]⟩
abbrev S1x16384 : Shape := ⟨2, ![1, 16384]⟩
abbrev S8192x16384 : Shape := ⟨2, ![8192, 16384]⟩
abbrev S1024x4096 : Shape := ⟨2, ![1024, 4096]⟩
abbrev S512x4096 : Shape := ⟨2, ![512, 4096]⟩
abbrev S1x512 : Shape := ⟨2, ![1, 512]⟩
abbrev S1024x512 : Shape := ⟨2, ![1024, 512]⟩
abbrev S4x2048x16384 : Shape := ⟨3, ![4, 2048, 16384]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384x4096, .bf16⟩
  | .hbm, ⟨4, _⟩ => ⟨S4x2048x4096, .bf16⟩
  | .hbm, ⟨5, _⟩ => ⟨S8192x4096, .bf16⟩
  | .hbm, ⟨6, _⟩ => ⟨S1x16384, .f32⟩
  | .hbm, ⟨7, _⟩ => ⟨S8192x16384, .f32⟩
  | .hbm, ⟨8, _⟩ => ⟨S4x2048x16384, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1024x4096, .bf16⟩
  | .local _ .vmem, ⟨5, _⟩ => ⟨S1024x4096, .bf16⟩
  | .local _ .vmem, ⟨6, _⟩ => ⟨S512x4096, .bf16⟩
  | .local _ .vmem, ⟨7, _⟩ => ⟨S512x4096, .bf16⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .bf16 = 32 ∨ (Rect.block (s := S16384x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S16384x4096.size a
  hwx1_1 : ∀ i : grid1.Coords, EltTy.bits .bf16 = 32 ∨ (Rect.block (s := S16384x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x16384.size a
  hwx1_2 : ∀ i : grid1.Coords, EltTy.bits .f32 = 32 ∨ (Rect.block (s := S1x16384) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x16384.size a
  hwx1_3 : ∀ i : grid1.Coords, EltTy.bits .f32 = 32 ∨ (Rect.block (s := S8192x16384) S1024x512.size (cc1_transform_3 i) (hinb1_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x32x128 : Shape := ⟨3, ![16384, 32, 128]⟩
abbrev S_ : Shape := ⟨0, ![]⟩
abbrev S16384x32 : Shape := ⟨2, ![16384, 32]⟩
abbrev S16384x32x1 : Shape := ⟨3, ![16384, 32, 1]⟩
abbrev S4x2048x16384 : Shape := ⟨3, ![4, 2048, 16384]⟩
abbrev S1x1x16384 : Shape := ⟨3, ![1, 1, 16384]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384x32x128, .f32⟩
  | .hbm, ⟨4, _⟩ => ⟨S16384x32x128, .f32⟩
  | .hbm, ⟨5, _⟩ => ⟨S_, .f32⟩
  | .hbm, ⟨6, _⟩ => ⟨S16384x32, .f32⟩
  | .hbm, ⟨7, _⟩ => ⟨S16384x32x1, .f32⟩
  | .hbm, ⟨8, _⟩ => ⟨S_, .f32⟩
  | .hbm, ⟨9, _⟩ => ⟨S16384x32x1, .f32⟩
  | .hbm, ⟨10, _⟩ => ⟨S16384x32x1, .f32⟩
  | .hbm, ⟨11, _⟩ => ⟨S_, .f32⟩
  | .hbm, ⟨12, _⟩ => ⟨S16384x32x1, .f32⟩
  | .hbm, ⟨13, _⟩ => ⟨S16384x32x1, .f32⟩
  | .hbm, ⟨14, _⟩ => ⟨S16384x32x128, .f32⟩
  | .hbm, ⟨15, _⟩ => ⟨S16384x32x128, .f32⟩
  | .hbm, ⟨16, _⟩ => ⟨S_, .f32⟩
  | .hbm, ⟨17, _⟩ => ⟨S16384x32x128, .f32⟩
  | .hbm, ⟨18, _⟩ => ⟨S16384x32x128, .i1⟩
  | .hbm, ⟨19, _⟩ => ⟨S_, .f32⟩
  | .hbm, ⟨20, _⟩ => ⟨S16384x32x128, .f32⟩
  | .hbm, ⟨21, _⟩ => ⟨S16384x32x128, .i1⟩
  | .hbm, ⟨22, _⟩ => ⟨S_, .f32⟩
  | .hbm, ⟨23, _⟩ => ⟨S_, .f32⟩
  | .hbm, ⟨24, _⟩ => ⟨S16384x32x128, .f32⟩
  | .hbm, ⟨25, _⟩ => ⟨S16384x32x128, .f32⟩
  | .hbm, ⟨26, _⟩ => ⟨S16384x32x128, .f32⟩
  | .hbm, ⟨27, _⟩ => ⟨S_, .f32⟩
  | .hbm, ⟨28, _⟩ => ⟨S16384x32x128, .f32⟩
  | .hbm, ⟨29, _⟩ => ⟨S16384x32x128, .f32⟩
  | .hbm, ⟨30, _⟩ => ⟨S16384x32x128, .f32⟩
  | .hbm, ⟨31, _⟩ => ⟨S16384x32x128, .f32⟩
  | .hbm, ⟨32, _⟩ => ⟨S16384x32x128, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S4x2048x16384, .f32⟩
  | .hbm, ⟨37, _⟩ => ⟨S1x1x16384, .f32⟩
  | .hbm, ⟨38, _⟩ => ⟨S4x2048x16384, .f32⟩
  | .hbm, ⟨39, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_cst_6 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  shapeCasts_S16384x4096_S16384x32x128 : S16384x4096.ShapeCasts S16384x32x128
  reducesTo_S16384x32x128_S16384x32_d2 : S16384x32x128.ReducesTo [2] S16384x32
  h_S_ : 0 < S_.numel
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S16384x32x1_S16384x32x128_0_1_2 : S16384x32x1.BroadcastsInDim S16384x32x128 (![0, 1, 2] : Fin 3 → Fin S16384x32x128.rank)
  bcast_S_S16384x32x128 : S_.BroadcastsInDim S16384x32x128 (![] : Fin 0 → Fin S16384x32x128.rank)
  shapeCasts_S16384x32x128_S16384x4096 : S16384x32x128.ShapeCasts S16384x4096
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Consts.lean ====
/- The float constants the two programs spell, as the extended reals their bit patterns denote: the group
   size 128, the clamp 1e-8 (only its being a positive real matters), the thresholds 1/2 and -1/2, and the three
   ternary levels 1, -1, 0. -/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `128.0`, the number of weights in a group, denotes the real `128`. -/
theorem ofBits_128 : Ideal.ofBits .f32 0x43000000#32 = ((128 : ℝ) : EReal) := by
  simp [Ideal.ofBits, Ideal.ieee, -EReal.coe_mul]; norm_num

/-- `0.5` denotes the real `1/2`. -/
theorem ofBits_half : Ideal.ofBits .f32 0x3F000000#32 = ((1 / 2 : ℝ) : EReal) := by
  simp [Ideal.ofBits, Ideal.ieee, -EReal.coe_mul]; norm_num

/-- `-0.5` denotes the real `-1/2`. -/
theorem ofBits_neg_half : Ideal.ofBits .f32 0xBF000000#32 = ((-(1 / 2) : ℝ) : EReal) := by
  simp [Ideal.ofBits, Ideal.ieee, -EReal.coe_mul]; norm_num

/-- `1.0` denotes the real `1`. -/
theorem ofBits_one : Ideal.ofBits .f32 0x3F800000#32 = ((1 : ℝ) : EReal) := by
  simp [Ideal.ofBits, Ideal.ieee, -EReal.coe_mul]; norm_num

/-- `-1.0` denotes the real `-1`. -/
theorem ofBits_neg_one : Ideal.ofBits .f32 0xBF800000#32 = ((-1 : ℝ) : EReal) := by
  simp [Ideal.ofBits, Ideal.ieee, -EReal.coe_mul]; norm_num

/-- The clamp `f32(1e-8)` denotes a positive real; which one is immaterial, both programs spell the same pattern. -/
theorem ofBits_eps : ∃ e : ℝ, 0 < e ∧ Ideal.ofBits .f32 0x322BCC77#32 = (e : EReal) := by
  refine ⟨(2 ^ 23 + 2870391 : ℕ) * (2 : ℝ) ^ ((100 : ℤ) - 127 - 23), by positivity, ?_⟩
  simp [Ideal.ofBits, Ideal.ieee, -EReal.coe_mul]

end Cert.Consts

end
-- ==== Proof.Spec.lean ====
/- Groupwise ternary quantization followed by a linear layer, as plain functions on the extended reals.

   A weight row of 4096 entries is cut into 32 groups of 128. A group's SCALE is the mean of its absolute values,
   clamped below by a small positive constant. Each weight is sent to one of three LEVELS 1, -1, 0 and multiplied by
   its group's scale. The two programs choose the level differently:
     · by threshold:  w > s/2 gives 1,  w < 0 - s/2 gives -1,  else 0;
     · by ratio:      w/s > 1/2 gives 1,  w/s < -1/2 gives -1,  else 0, after which the result q·s is passed through
                      w + (q·s - w).
   When w and s are real numbers with s > 0 the two tests are the same inequality (multiply through by s), and
   w + (q·s - w) = q·s because nothing is infinite. That is the one law of this file; the sums and products around it
   are spelt identically on both sides and are never rearranged. -/
import Idealize.ShloMosaic.PureOps.Ideal
import Idealize.ShloMosaic.PureOps.Ideal.Laws
import Idealize.ShloMosaic.Lib.ValueIdx
import proofs.«153563_j7499012899209_2_alg».proof.Proof.Consts

noncomputable section

namespace Cert.Ternary

open Idealize.ShloMosaic Idealize.ShloMosaic.ValueIdx

/-! ## One weight against one scale -/

/-- A group's scale from the sum `a` of its absolute values: `max (a / 128) ε`. -/
def scaleOf (a : EReal) : EReal :=
  max (Ideal.div a (Ideal.ofBits .f32 0x43000000#32)) (Ideal.ofBits .f32 0x322BCC77#32)

/-- The level chosen by comparing the weight with half the scale. -/
def levelByThreshold (w s : EReal) : EReal :=
  Scalar.select (Ideal.cmp .ogt w (Ideal.ofBits .f32 0x3F000000#32 * s)) (Ideal.ofBits .f32 0x3F800000#32)
    (Scalar.select (Ideal.cmp .olt w (Ideal.ofBits .f32 0x00000000#32 - Ideal.ofBits .f32 0x3F000000#32 * s))
      (Ideal.ofBits .f32 0xBF800000#32) (Ideal.ofBits .f32 0x00000000#32))

/-- The level chosen by comparing the ratio weight / scale with one half. -/
def levelByRatio (w s : EReal) : EReal :=
  Scalar.select (Ideal.cmp .ogt (Ideal.div w s) (Ideal.ofBits .f32 0x3F000000#32)) (Ideal.ofBits .f32 0x3F800000#32)
    (Scalar.select (Ideal.cmp .olt (Ideal.div w s) (Ideal.ofBits .f32 0xBF000000#32))
      (Ideal.ofBits .f32 0xBF800000#32) (Ideal.ofBits .f32 0x00000000#32))

/-- The quantized weight, threshold form: level times scale. -/
def ternThreshold (w s : EReal) : EReal := levelByThreshold w s * s

/-- The quantized weight, ratio form, passed through `w + (· - w)`. -/
def ternRatio (w s : EReal) : EReal := w + (levelByRatio w s * s - w)

/-- The coercion of the reals into the extended reals is monotone, so it commutes with `max`. -/
theorem coe_max (x y : ℝ) : ((max x y : ℝ) : EReal) = max (x : EReal) (y : EReal) :=
  EReal.coe_strictMono.monotone.map_max

/-- The scale of a real sum is a positive real: `ε` is one, and `a / 128` is real. -/
theorem scaleOf_coe (a : ℝ) : ∃ r : ℝ, 0 < r ∧ scaleOf (a : EReal) = (r : EReal) := by
  obtain ⟨e, he, hE⟩ := Cert.Consts.ofBits_eps
  refine ⟨max (a * (1 / 128)) e, lt_max_of_lt_right he, ?_⟩
  unfold scaleOf
  rw [Cert.Consts.ofBits_128, hE, Ideal.div_coe (by norm_num : (128 : ℝ) ≠ 0), ← EReal.coe_mul, ← coe_max]

/-- Whatever it is compared with, the threshold level is one of three real numbers. -/
theorem levelByThreshold_real (w s : EReal) : ∃ q : ℝ, levelByThreshold w s = (q : EReal) := by
  unfold levelByThreshold Scalar.select
  rw [Cert.Consts.ofBits_one, Cert.Consts.ofBits_neg_one, Cert.Consts.ofBits_zero]
  split_ifs
  · exact ⟨1, rfl⟩
  · exact ⟨-1, rfl⟩
  · exact ⟨0, rfl⟩

/-- For a real weight and a positive real scale the ratio test IS the threshold test: `a / r > 1/2 ↔ a > r/2` and
    `a / r < -1/2 ↔ a < 0 - r/2`. -/
theorem levelByRatio_eq_levelByThreshold (a r : ℝ) (hr : 0 < r) :
    levelByRatio (a : EReal) (r : EReal) = levelByThreshold (a : EReal) (r : EReal) := by
  unfold levelByRatio levelByThreshold
  rw [Cert.Consts.ofBits_half, Cert.Consts.ofBits_neg_half, Cert.Consts.ofBits_zero, Ideal.div_coe hr.ne']
  have e1 : (a : EReal) * ((1 / r : ℝ) : EReal) = ((a / r : ℝ) : EReal) := by
    rw [← EReal.coe_mul, mul_one_div]
  have e2 : ((1 / 2 : ℝ) : EReal) * (r : EReal) = ((1 / 2 * r : ℝ) : EReal) := (EReal.coe_mul _ _).symm
  have e3 : (0 : EReal) - ((1 / 2 * r : ℝ) : EReal) = ((0 - 1 / 2 * r : ℝ) : EReal) := by
    rw [← EReal.coe_zero, ← EReal.coe_sub]
  rw [e1, e2, e3]
  have h1 : (1 / 2 < a / r) ↔ (1 / 2 * r < a) := by rw [lt_div_iff₀ hr]
  have h2 : (a / r < -(1 / 2)) ↔ (a < 0 - 1 / 2 * r) := by
    rw [div_lt_iff₀ hr]; constructor <;> intro h <;> linarith
  simp only [Ideal.cmp, EReal.coe_lt_coe_iff, h1, h2]

/-- So for a real weight and a positive real scale the two quantized weights agree: the levels agree, and
    `a + (q·r - a) = q·r` among reals. -/
theorem ternRatio_eq_ternThreshold (a r : ℝ) (hr : 0 < r) :
    ternRatio (a : EReal) (r : EReal) = ternThreshold (a : EReal) (r : EReal) := by
  unfold ternRatio ternThreshold
  rw [levelByRatio_eq_levelByThreshold a r hr]
  obtain ⟨q, hq⟩ := levelByThreshold_real (a : EReal) (r : EReal)
  rw [hq, ← EReal.coe_mul, ← EReal.coe_sub, ← EReal.coe_add]
  exact congrArg _ (by ring)

/-! ## One row of the weight matrix -/

/-- A finite sum of reals, taken in the extended reals, is the real sum. -/
theorem coe_sum {ι : Type} (s : Finset ι) (f : ι → ℝ) : ∑ i ∈ s, (f i : EReal) = ((∑ i ∈ s, f i : ℝ) : EReal) := by
  classical
  refine Finset.induction_on s (by simp) fun i s hi ih => ?_
  rw [Finset.sum_insert hi, Finset.sum_insert hi, ih, EReal.coe_add]

/-- Column `g·128 + k`: entry `k` of group `g`. -/
def col (g : Fin 32) (k : Fin 128) : Fin 4096 := ⟨g.val * 128 + k.val, by have := g.isLt; have := k.isLt; omega⟩

/-- The group a column lies in. -/
def grp (i : Fin 4096) : Fin 32 := ⟨i.val / 128, by have := i.isLt; omega⟩

/-- The sum of the absolute values of group `g` of a row (`|x|` as `max x (-x)`). -/
def absSum (w : Fin 4096 → EReal) (g : Fin 32) : EReal := ∑ k : Fin 128, max (w (col g k)) (-(w (col g k)))

/-- A row quantized, threshold form. -/
def quantRowThreshold (w : Fin 4096 → EReal) (i : Fin 4096) : EReal := ternThreshold (w i) (scaleOf (absSum w (grp i)))

/-- A row quantized, ratio form. -/
def quantRowRatio (w : Fin 4096 → EReal) (i : Fin 4096) : EReal := ternRatio (w i) (scaleOf (absSum w (grp i)))

/-- On a row of real numbers the two forms agree: the group's sum of absolute values is real, so its scale is a
    positive real, and the scalar law applies. -/
theorem quantRowRatio_eq_quantRowThreshold (w : Fin 4096 → EReal) (hw : ∀ j, ∃ a : ℝ, w j = (a : EReal)) (i : Fin 4096) :
    quantRowRatio w i = quantRowThreshold w i := by
  choose a ha using hw
  have hs : absSum w (grp i) = ((∑ k : Fin 128, max (a (col (grp i) k)) (-(a (col (grp i) k))) : ℝ) : EReal) := by
    unfold absSum
    rw [← coe_sum]
    refine Finset.sum_congr rfl fun k _ => ?_
    rw [ha, ← EReal.coe_neg, ← coe_max]
  obtain ⟨r, hr, hR⟩ := scaleOf_coe (∑ k : Fin 128, max (a (col (grp i) k)) (-(a (col (grp i) k))))
  unfold quantRowRatio quantRowThreshold
  rw [hs, hR, ha]
  exact ternRatio_eq_ternThreshold _ r hr

/-! ## The arrays -/

/-- Row `o` of a 16384 × 4096 array. -/
def rowOf (W : (⟨2, ![16384, 4096]⟩ : Shape).Idx → EReal) (o : Fin 16384) : Fin 4096 → EReal := fun j => W (ix2 o j)

/-- The weight matrix quantized row by row, threshold form. -/
def quantThreshold (W : (⟨2, ![16384, 4096]⟩ : Shape).Idx → EReal) : (⟨2, ![16384, 4096]⟩ : Shape).Idx → EReal :=
  fun j => quantRowThreshold (rowOf W ⟨(j 0).val, (j 0).isLt⟩) ⟨(j 1).val, (j 1).isLt⟩

/-- The weight matrix quantized row by row, ratio form. -/
def quantRatio (W : (⟨2, ![16384, 4096]⟩ : Shape).Idx → EReal) : (⟨2, ![16384, 4096]⟩ : Shape).Idx → EReal :=
  fun j => quantRowRatio (rowOf W ⟨(j 0).val, (j 0).isLt⟩) ⟨(j 1).val, (j 1).isLt⟩

theorem quantThreshold_ix2 (W : (⟨2, ![16384, 4096]⟩ : Shape).Idx → EReal) (o : Fin 16384) (i : Fin 4096) :
    quantThreshold W (ix2 o i) = quantRowThreshold (rowOf W o) i := rfl

theorem quantRatio_ix2 (W : (⟨2, ![16384, 4096]⟩ : Shape).Idx → EReal) (o : Fin 16384) (i : Fin 4096) :
    quantRatio W (ix2 o i) = quantRowRatio (rowOf W o) i := rfl

/-- On a matrix of real numbers the two quantizations are one array. -/
theorem quantRatio_eq_quantThreshold (W : (⟨2, ![16384, 4096]⟩ : Shape).Idx → EReal) (hW : ∀ j, ∃ a : ℝ, W j = (a : EReal)) :
    quantRatio W = quantThreshold W :=
  funext fun j => quantRowRatio_eq_quantRowThreshold _ (fun k => hW _) _

/-- The linear layer: `out[b, t, o] = Σ_k x[b, t, k] · q[o, k] + bias[o]`. -/
def linear (X : (⟨3, ![4, 2048, 4096]⟩ : Shape).Idx → EReal) (Q : (⟨2, ![16384, 4096]⟩ : Shape).Idx → EReal)
    (B : (⟨1, ![16384]⟩ : Shape).Idx → EReal) : (⟨3, ![4, 2048, 16384]⟩ : Shape).Idx → EReal :=
  fun j => (∑ k : Fin 4096, X (ix3 (⟨(j 0).val, (j 0).isLt⟩ : Fin 4) (⟨(j 1).val, (j 1).isLt⟩ : Fin 2048) k)
      * Q (ix2 (⟨(j 2).val, (j 2).isLt⟩ : Fin 16384) k)) + B (ix1 (⟨(j 2).val, (j 2).isLt⟩ : Fin 16384))

theorem linear_ix3 (X : (⟨3, ![4, 2048, 4096]⟩ : Shape).Idx → EReal) (Q : (⟨2, ![16384, 4096]⟩ : Shape).Idx → EReal)
    (B : (⟨1, ![16384]⟩ : Shape).Idx → EReal) (b : Fin 4) (t : Fin 2048) (o : Fin 16384) :
    linear X Q B (ix3 b t o) = (∑ k : Fin 4096, X (ix3 b t k) * Q (ix2 o k)) + B (ix1 o) := rfl

end Cert.Ternary

end
-- ==== Proof.RefValue.lean ====
/- The reference program read as the specification's function (ratio form).

   Its weight matrix is reshaped to [16384, 32, 128]: entry (o, g, k) is the weight at row o, column g·128 + k.
   The absolute values are summed over k, divided by 128 and clamped: the group's scale. The weight divided by
   its group's scale is compared with ±1/2 to choose a level, the level is multiplied by the scale, the result
   is reshaped back to [16384, 4096] (column i lies in group i / 128 at place i % 128) and passed through
   w + (· - w). The product with the activations and the bias follow. Each step below reads one such stage at
   explicit coordinates. -/
import proofs.«153563_j7499012899209_2_alg».proof.Proof.Gen.ReferenceIdeal.Read
import proofs.«153563_j7499012899209_2_alg».proof.Proof.Spec

noncomputable section

namespace Cert.ReferenceIdeal.RefValue

open Cert.ReferenceIdeal Cert.ReferenceIdeal.Read Idealize.ShloMosaic Idealize.ShloMosaic.ValueIdx Cert.Ternary

variable (x1 : (⟨S16384x4096, .f32⟩ : BufTy).Contents (Elt Ideal))

/-- The reshaped weight at (o, g, k) is the weight at row o, column g·128 + k. -/
theorem weight_at (o : Fin 16384) (g : Fin 32) (k : Fin 128) :
    val_main_v0 (F := Ideal) x1 (ix3 o g k) = rowOf x1 o (col g k) := by
  rw [val_main_v0_apply]
  show x1 _ = x1 (ix2 o (col g k))
  refine congrArg x1 (funext fun a => Fin.ext ?_)
  have hg := g.isLt
  have hk := k.isLt
  match a with
  | ⟨0, _⟩ => show ((o.val * 32 + g.val) * 128 + k.val) / 4096 = o.val; omega
  | ⟨1, _⟩ => show ((o.val * 32 + g.val) * 128 + k.val) % 4096 = g.val * 128 + k.val; omega

/-- The sum over a group of the absolute values (the initial value is zero). -/
theorem sum_at (o : Fin 16384) (g : Fin 32) :
    val_main_v2 (F := Ideal) x1 (ix2 o g) = absSum (rowOf x1 o) g := by
  rw [val_main_v2_apply, val_main_cst_apply]
  show Ideal.ofBits .f32 0x00000000#32 + _ = _
  rw [Cert.Consts.ofBits_zero, zero_add]
  unfold absSum
  refine Finset.sum_congr rfl fun k _ => ?_
  have e : idx_main_v2 (ix2 o g) k = ix3 o g k :=
    funext fun a => Fin.ext (by match a with | ⟨0, _⟩ => rfl | ⟨1, _⟩ => rfl | ⟨2, _⟩ => rfl)
  rw [e, val_main_v1_apply, weight_at]
  rfl

/-- The group's scale: the sum divided by 128, clamped below. -/
theorem scale_at (o : Fin 16384) (g : Fin 32) :
    val_main_v7 (F := Ideal) x1 (ix3 o g (0 : Fin 1)) = scaleOf (absSum (rowOf x1 o) g) := by
  have e : idx_main_v3 (ix3 o g (0 : Fin 1)) = ix2 o g :=
    funext fun a => Fin.ext (by match a with | ⟨0, _⟩ => rfl | ⟨1, _⟩ => rfl)
  rw [val_main_v7_apply, val_main_v5_apply, val_main_v3_apply, val_main_v4_apply, val_main_v6_apply,
    val_main_cst_0_apply, val_main_cst_1_apply, e, sum_at]
  rfl

/-- The quantized weight at (o, g, k), before it is reshaped back: the level chosen by the ratio, times the scale. -/
theorem level_at (o : Fin 16384) (g : Fin 32) (k : Fin 128) :
    val_main_v18 (F := Ideal) x1 (ix3 o g k)
      = levelByRatio (rowOf x1 o (col g k)) (scaleOf (absSum (rowOf x1 o) g)) * scaleOf (absSum (rowOf x1 o) g) := by
  have e8 : idx_main_v8 (ix3 o g k) = ix3 o g (0 : Fin 1) :=
    funext fun a => Fin.ext (by match a with | ⟨0, _⟩ => rfl | ⟨1, _⟩ => rfl | ⟨2, _⟩ => rfl)
  have e17 : idx_main_v17 (ix3 o g k) = ix3 o g (0 : Fin 1) :=
    funext fun a => Fin.ext (by match a with | ⟨0, _⟩ => rfl | ⟨1, _⟩ => rfl | ⟨2, _⟩ => rfl)
  rw [val_main_v18_apply, val_main_v16_apply, val_main_v15_apply, val_main_v14_apply, val_main_v11_apply,
    val_main_v13_apply, val_main_v9_apply, val_main_v8_apply, val_main_v17_apply, e8, e17, scale_at, weight_at,
    val_main_v10_apply, val_main_v12_apply, val_main_call0_v0_apply, val_main_call0_v1_apply, val_main_call1_v0_apply,
    val_main_cst_2_apply, val_main_cst_3_apply, val_main_cst_4_apply, val_main_cst_5_apply, val_main_cst_6_apply]
  rfl

/-- The matrix the product is taken with, at (o, i): the ratio-form quantization of row o at column i. -/
theorem quant_at (o : Fin 16384) (i : Fin 4096) :
    val_main_v21 (F := Ideal) x1 (ix2 o i) = quantRatio x1 (ix2 o i) := by
  have hi := i.isLt
  have e19 : idx_main_v19 (ix2 o i) = ix3 o (grp i) (⟨i.val % 128, Nat.mod_lt _ (by decide)⟩ : Fin 128) :=
    funext fun a => Fin.ext (by
      match a with
      | ⟨0, _⟩ => show (o.val * 4096 + i.val) / 4096 = o.val; omega
      | ⟨1, _⟩ => show (o.val * 4096 + i.val) / 128 % 32 = i.val / 128; omega
      | ⟨2, _⟩ => show (o.val * 4096 + i.val) % 128 = i.val % 128; omega)
  have ec : col (grp i) (⟨i.val % 128, Nat.mod_lt _ (by decide)⟩ : Fin 128) = i :=
    Fin.ext (by show i.val / 128 * 128 + i.val % 128 = i.val; omega)
  rw [val_main_v21_apply, val_main_v20_apply, val_main_v19_apply, e19, level_at, ec, quantRatio_ix2]
  rfl

/-- The reference's result is the linear layer over the ratio-form quantization of its weight argument. -/
theorem result_eq (x0 : (⟨S4x2048x4096, .f32⟩ : BufTy).Contents (Elt Ideal)) (x2 : (⟨S16384, .f32⟩ : BufTy).Contents (Elt Ideal)) :
    val_main_v25 (F := Ideal) x0 x1 x2 = linear x0 (quantRatio x1) x2 := by
  funext j
  obtain ⟨b, t, o, rfl⟩ : ∃ (b : Fin 4) (t : Fin 2048) (o : Fin 16384), j = ix3 b t o := ⟨j 0, j 1, j 2, eq_ix3 j⟩
  have eb : idx_main_v23 (idx_main_v24 (ix3 b t o)) = ix1 o :=
    funext fun a => Fin.ext (by match a with | ⟨0, _⟩ => rfl)
  rw [linear_ix3, val_main_v25_apply, val_main_v22_apply, val_main_v24_apply, val_main_v23_apply, eb]
  show (∑ k : Fin 4096, _) + _ = _
  refine congrArg (· + x2 (ix1 o)) (Finset.sum_congr rfl fun k _ => ?_)
  have el : lidx_main_v22 (ix3 b t o) k = ix3 b t k :=
    funext fun a => Fin.ext (by match a with | ⟨0, _⟩ => rfl | ⟨1, _⟩ => rfl | ⟨2, _⟩ => rfl)
  have er : ridx_main_v22 (ix3 b t o) k = ix2 o k :=
    funext fun a => Fin.ext (by match a with | ⟨0, _⟩ => rfl | ⟨1, _⟩ => rfl)
  rw [el, er, quant_at]

end Cert.ReferenceIdeal.RefValue

end
-- ==== Proof.QuantBody.lean ====
/- What the quantization kernel's body stores, read at an index.

   The body loads a block of 256 weight rows, views it as [256, 32, 128] (entry (r, g, k) is the block's entry at
   row r, column g·128 + k), sums the absolute values over k, divides by 128 and clamps: the scale of group g of
   row r, a [256, 32, 1] vector. Half the scale and its negative are broadcast back over k and compared with the
   weights to choose the level; the level times the broadcast scale is viewed as [256, 4096] again, column i
   coming from group i / 128 at place i % 128. So the stored value at (r, i) is the threshold-form quantization
   of row r of the loaded block at column i. -/
import proofs.«153563_j7499012899209_2_alg».proof.Proof.Gen.KernelIdeal.Skeleton
import proofs.«153563_j7499012899209_2_alg».proof.Proof.Spec
import Idealize.ShloMosaic.Lib.Pipeline.Value
import Idealize.ShloMosaic.Lib.ValueIdx
import Idealize.ShloMosaic.PureOps.Ideal.Laws

noncomputable section

namespace Cert.KernelIdeal.QuantBody

open Cert.KernelIdeal Cert.KernelIdeal.Gen Idealize.ShloMosaic Idealize.ShloMosaic.ValueIdx Cert.Ternary

/-- The lane sum over a group, at row r and group g, is the sum over the group's 128 places. -/
theorem groupSum_apply (v : FVec Ideal S256x32x128 .f32) (r : Fin 256) (g : Fin 32) :
    multiReduction .add [2] S256x32 v 0x00000000#32 reduces_S256x32x128_S256x32 (.inl rfl) rfl (ix2 r g)
      = ∑ k : Fin 128, v (ix3 r g k) := by
  refine (Ideal.multiReduction_add_single v 0x00000000#32 reduces_S256x32x128_S256x32 (.inl rfl) rfl (ix2 r g)).trans ?_
  refine Finset.sum_congr rfl fun k _ => congrArg v (funext fun a => Fin.ext ?_)
  match a with
  | ⟨0, _⟩ => rfl
  | ⟨1, _⟩ => rfl
  | ⟨2, _⟩ => rfl

/-- The scales of a [256, 32, 128] block of weights, one per row and group. -/
def scales (v1 : FVec Ideal S256x32x128 .f32) : FVec Ideal S256x32x1 .f32 :=
  maximumf
    (divf (shapeCast S256x32x1 (multiReduction .add [2] S256x32 (absf v1) 0x00000000#32 reduces_S256x32x128_S256x32 (.inl rfl) rfl)
        shapeCasts_S256x32_S256x32x1) (broadcast S256x32x1 (Scalar.ofBits .f32 0x43000000#32)))
    (broadcast S256x32x1 (Scalar.ofBits .f32 0x322BCC77#32))

/-- The scale at row r, group g. -/
theorem scales_apply (v1 : FVec Ideal S256x32x128 .f32) (r : Fin 256) (g : Fin 32) :
    scales v1 (ix3 r g (0 : Fin 1)) = scaleOf (∑ k : Fin 128, max (v1 (ix3 r g k)) (-(v1 (ix3 r g k)))) := by
  have e : shapeCast S256x32x1 (multiReduction .add [2] S256x32 (absf v1) 0x00000000#32 reduces_S256x32x128_S256x32 (.inl rfl) rfl)
      shapeCasts_S256x32_S256x32x1 (ix3 r g (0 : Fin 1)) = ∑ k : Fin 128, absf v1 (ix3 r g k) :=
    (shapeCast_apply _ shapeCasts_S256x32_S256x32x1 (ix3 r g (0 : Fin 1)) (ix2 r g) (by
      rewrite [Shape.rowMajor_val_two, Shape.rowMajor_val_three]
      show r.val * 32 + g.val = (r.val * 32 + g.val) * 1 + 0
      omega)).trans (groupSum_apply (absf v1) r g)
  show max (Ideal.div (shapeCast S256x32x1 _ shapeCasts_S256x32_S256x32x1 (ix3 r g (0 : Fin 1))) (Ideal.ofBits .f32 0x43000000#32))
      (Ideal.ofBits .f32 0x322BCC77#32) = _
  rw [e]
  rfl

/-- The quantized [256, 32, 128] block from the weights and their scales: level by threshold, times scale. -/
def quantized (v1 : FVec Ideal S256x32x128 .f32) (v8 : FVec Ideal S256x32x1 .f32) : FVec Ideal S256x32x128 .f32 :=
  mulf
    (select (cmpf .ogt v1 (broadcastTo S256x32x128 (mulf (broadcast S256x32x1 (Scalar.ofBits .f32 0x3F000000#32)) v8) broadcasts_S256x32x1_S256x32x128))
      (broadcast S256x32x128 (Scalar.ofBits .f32 0x3F800000#32))
      (select (cmpf .olt v1 (broadcastTo S256x32x128 (subf (broadcast S256x32x1 (Scalar.ofBits .f32 0x00000000#32))
            (mulf (broadcast S256x32x1 (Scalar.ofBits .f32 0x3F000000#32)) v8)) broadcasts_S256x32x1_S256x32x128))
        (broadcast S256x32x128 (Scalar.ofBits .f32 0xBF800000#32)) (broadcast S256x32x128 (Scalar.ofBits .f32 0x00000000#32))))
    (broadcastTo S256x32x128 v8 broadcasts_S256x32x1_S256x32x128)

/-- A per-group vector broadcast over the group's places reads, at (r, g, k), its entry at (r, g). -/
theorem spread_apply (X : FVec Ideal S256x32x1 .f32) (r : Fin 256) (g : Fin 32) (k : Fin 128) :
    broadcastTo S256x32x128 X broadcasts_S256x32x1_S256x32x128 (ix3 r g k) = X (ix3 r g (0 : Fin 1)) :=
  broadcastTo_apply X broadcasts_S256x32x1_S256x32x128 (ix3 r g k) (ix3 r g (0 : Fin 1)) (fun a => match a with
    | ⟨0, _⟩ => by show r.val = if (256 : Nat) = 1 then 0 else r.val; rw [if_neg (by decide)]
    | ⟨1, _⟩ => by show g.val = if (32 : Nat) = 1 then 0 else g.val; rw [if_neg (by decide)]
    | ⟨2, _⟩ => by show 0 = if (1 : Nat) = 1 then 0 else k.val; rw [if_pos rfl])

/-- The quantized block at (r, g, k): the weight there against the scale of (r, g). -/
theorem quantized_apply (v1 : FVec Ideal S256x32x128 .f32) (v8 : FVec Ideal S256x32x1 .f32) (r : Fin 256) (g : Fin 32) (k : Fin 128) :
    quantized v1 v8 (ix3 r g k) = ternThreshold (v1 (ix3 r g k)) (v8 (ix3 r g (0 : Fin 1))) := by
  show Scalar.select (Ideal.cmp .ogt (v1 (ix3 r g k)) (broadcastTo S256x32x128 _ broadcasts_S256x32x1_S256x32x128 (ix3 r g k)))
        (Ideal.ofBits .f32 0x3F800000#32)
        (Scalar.select (Ideal.cmp .olt (v1 (ix3 r g k)) (broadcastTo S256x32x128 _ broadcasts_S256x32x1_S256x32x128 (ix3 r g k)))
          (Ideal.ofBits .f32 0xBF800000#32) (Ideal.ofBits .f32 0x00000000#32))
      * broadcastTo S256x32x128 v8 broadcasts_S256x32x1_S256x32x128 (ix3 r g k) = _
  rw [spread_apply, spread_apply, spread_apply]
  rfl

/-- The body's stored value is those stages composed between the two views of the block. -/
theorem pay_eq (x0 : Vec Ideal S256x4096 .f32) :
    k0_pay1 x0 = truncf .bf16 (shapeCast S256x4096
      (quantized (shapeCast S256x32x128 x0 shapeCasts_S256x4096_S256x32x128) (scales (shapeCast S256x32x128 x0 shapeCasts_S256x4096_S256x32x128)))
      shapeCasts_S256x32x128_S256x4096) bitsLt_bf16_f32 := rfl

/-- The block viewed [256, 32, 128] at (r, g, k) is the block at row r, column g·128 + k. -/
theorem grouped_apply (x0 : Vec Ideal S256x4096 .f32) (r : Fin 256) (g : Fin 32) (k : Fin 128) :
    shapeCast S256x32x128 x0 shapeCasts_S256x4096_S256x32x128 (ix3 r g k) = x0 (ix2 r (col g k)) :=
  shapeCast_apply x0 shapeCasts_S256x4096_S256x32x128 (ix3 r g k) (ix2 r (col g k)) (by
    rewrite [Shape.rowMajor_val_two, Shape.rowMajor_val_three]
    show r.val * 4096 + (g.val * 128 + k.val) = (r.val * 32 + g.val) * 128 + k.val
    omega)

/-- THE STORED VALUE at row r, column i of the block: row r quantized, threshold form, at column i. -/
theorem pay_apply (x0 : Vec Ideal S256x4096 .f32) (r : Fin 256) (i : Fin 4096) :
    k0_pay1 x0 (ix2 r i) = quantRowThreshold (fun j => x0 (ix2 r j)) i := by
  have hi := i.isLt
  have ec : col (grp i) (⟨i.val % 128, Nat.mod_lt _ (by decide)⟩ : Fin 128) = i :=
    Fin.ext (by show i.val / 128 * 128 + i.val % 128 = i.val; omega)
  rw [pay_eq]
  show shapeCast S256x4096 (quantized (shapeCast S256x32x128 x0 shapeCasts_S256x4096_S256x32x128)
      (scales (shapeCast S256x32x128 x0 shapeCasts_S256x4096_S256x32x128))) shapeCasts_S256x32x128_S256x4096 (ix2 r i) = _
  refine (shapeCast_apply _ shapeCasts_S256x32x128_S256x4096 (ix2 r i)
    (ix3 r (grp i) (⟨i.val % 128, Nat.mod_lt _ (by decide)⟩ : Fin 128)) (by
      rewrite [Shape.rowMajor_val_three, Shape.rowMajor_val_two]
      show (r.val * 32 + i.val / 128) * 128 + i.val % 128 = r.val * 4096 + i.val
      omega)).trans ?_
  rw [quantized_apply, scales_apply, grouped_apply, ec]
  unfold quantRowThreshold absSum
  refine congrArg (fun s => ternThreshold (x0 (ix2 r i)) (scaleOf s)) (Finset.sum_congr rfl fun k _ => ?_)
  rw [grouped_apply]

end Cert.KernelIdeal.QuantBody

end
-- ==== Proof.QuantValue.lean ====
/- The quantized weight matrix the first kernel leaves in its output array.

   The grid has 64 points; at point t the kernel reads block t of the weight matrix (rows 256·t … 256·t + 255,
   all 4096 columns) and writes back block t of its output array. A row's quantization depends on that row only,
   so what point t writes back is block t of the row-by-row quantization of the whole matrix; the 64 blocks cover
   the 16384 rows (row j lies in block j / 256), hence the output array ends as that quantization. -/
import proofs.«153563_j7499012899209_2_alg».proof.Proof.Gen.KernelIdeal.Frame
import proofs.«153563_j7499012899209_2_alg».proof.Proof.QuantBody
import Idealize.ShloMosaic.Lib.Pipeline.Value

noncomputable section

namespace Cert.KernelIdeal.QuantValue

open Cert.KernelIdeal Cert.KernelIdeal.Gen Idealize.ShloMosaic Idealize.ShloMosaic.TcCoe Idealize.SL.Sem
open Idealize.ShloMosaic.ValueIdx Cert.Ternary
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The two windows move together down the rows and neither moves along the columns; decided over the 64 points. -/
theorem index_facts : ∀ t : Fin cfg0.N, win0_0.index t (0 : Fin 2) = win0_1.index t (0 : Fin 2)
    ∧ win0_0.index t (1 : Fin 2) = 0 ∧ win0_1.index t (1 : Fin 2) = 0 :=
  (by decide +kernel : ∀ t : Fin grid0.N, _)

/-- Every one of the 64 row blocks is some point's. -/
theorem index_onto : ∀ a : Fin 64, ∃ t : Fin cfg0.N, win0_1.index t (0 : Fin 2) = a.val :=
  (by decide +kernel : ∀ a : Fin 64, ∃ t : Fin grid0.N, win0_1.index t (0 : Fin 2) = a.val)

/-- WHAT POINT t WRITES BACK is block t of the weight matrix quantized row by row. -/
theorem flushed_eq (c : Dev nD) (t : Fin cfg0.N) :
    (dat0 V c).flushed 1 t = ((cfg0.win 1).blk t).view.read (Elt Ideal) (quantThreshold (V c main_arg1)) := by
  show (cfg0.win 1).cut (grid0.coords t) ((dat0 V c).after 1 t) = _
  rw [after0_1]
  unfold out0_1
  rw [View.canon_unit_zero zero_offsets]
  simp only [View.ld_unit_zero (S := S256x4096) zero_offsets]
  obtain ⟨e0, e1, e2⟩ := index_facts t
  funext y
  obtain ⟨r, i, rfl⟩ : ∃ (r : Fin 256) (i : Fin 4096), y = ix2 r i := ⟨y 0, y 1, eq_ix2 y⟩
  show k0_pay1 (iblk0 V c 0 t) (ix2 r i) = quantThreshold (V c main_arg1) (((cfg0.win 1).blk t).view.emb (ix2 r i))
  refine (QuantBody.pay_apply (iblk0 V c 0 t) r i).trans ?_
  have hrow : (fun j : Fin 4096 => iblk0 V c 0 t (ix2 r j))
      = rowOf (V c main_arg1) ⟨win0_1.index t (0 : Fin 2) * 256 + 1 * r.val, ((((cfg0.win 1).blk t).view.emb (ix2 r i)) 0).isLt⟩ :=
    funext fun j => by
      show V c main_arg1 (((cfg0.win 0).blk t).view.emb (ix2 r j)) = V c main_arg1 (ix2 _ j)
      refine congrArg (V c main_arg1) (funext fun a => Fin.ext ?_)
      match a with
      | ⟨0, _⟩ => show win0_0.index t (0 : Fin 2) * 256 + 1 * r.val = win0_1.index t (0 : Fin 2) * 256 + 1 * r.val; rw [e0]
      | ⟨1, _⟩ => show win0_0.index t (1 : Fin 2) * 4096 + 1 * j.val = j.val; rw [e1]; omega
  have hcol : (⟨win0_1.index t (1 : Fin 2) * 4096 + 1 * i.val, ((((cfg0.win 1).blk t).view.emb (ix2 r i)) 1).isLt⟩ : Fin 4096) = i :=
    Fin.ext (by show win0_1.index t (1 : Fin 2) * 4096 + 1 * i.val = i.val; rw [e2]; omega)
  show _ = quantRowThreshold (rowOf (V c main_arg1) ⟨win0_1.index t (0 : Fin 2) * 256 + 1 * r.val, _⟩)
    ⟨win0_1.index t (1 : Fin 2) * 4096 + 1 * i.val, _⟩
  rw [hrow, hcol]

/-- An index of the output array is in point t's block iff each coordinate is in the block's range on its axis. -/
theorem mem_block (t : Fin cfg0.N) (j : S16384x4096.Idx) :
    j ∈ ((cfg0.win 1).blk t).view.set ↔ ∀ a : Fin 2, win0_1.index t a * S256x4096.size a ≤ (j a).val
      ∧ (j a).val < win0_1.index t a * S256x4096.size a + S256x4096.size a := by
  show j ∈ ((View.whole main_v0).slice (win0_1.rect t)).set ↔ _
  rw [View.set_slice_whole, Rect.mem_set_unit]
  exact Iff.rfl

/-- Every index of the output array lies in the block of the point that handles its row's block of 256. -/
theorem cover (j : S16384x4096.Idx) : ∃ t : Fin cfg0.N, (cfg0.win 1).flush t = true ∧ j ∈ ((cfg0.win 1).blk t).view.set := by
  have h0 : (j 0).val < 16384 := (j 0).isLt
  have h1 : (j 1).val < 4096 := (j 1).isLt
  obtain ⟨t, ht⟩ := index_onto ⟨(j 0).val / 256, by omega⟩
  have ht' : win0_1.index t (0 : Fin 2) = (j 0).val / 256 := ht
  obtain ⟨e0, e1, e2⟩ := index_facts t
  refine ⟨t, flush0_1 t, ?_⟩
  rw [mem_block]
  intro a
  match a with
  | ⟨0, _⟩ =>
    show win0_1.index t (0 : Fin 2) * 256 ≤ (j 0).val ∧ (j 0).val < win0_1.index t (0 : Fin 2) * 256 + 256
    rw [ht']; omega
  | ⟨1, _⟩ =>
    show win0_1.index t (1 : Fin 2) * 4096 ≤ (j 1).val ∧ (j 1).val < win0_1.index t (1 : Fin 2) * 4096 + 4096
    rw [e2]; omega

/-- THE OUTPUT ARRAY after the first kernel: the weight matrix, as the kernel found it, quantized row by row. -/
theorem final (c : Dev nD) : (dat0 V c).arrAt 1 cfg0.N = quantThreshold (V c main_arg1) :=
  (dat0 V c).arrAt_eq_of_cover 1 (quantThreshold (V c main_arg1)) (fun t _ => flushed_eq V c t) cover

end Cert.KernelIdeal.QuantValue

end
-- ==== Proof.MatmulBody.lean ====
/- What the matmul kernel's body stores, read at an index.

   The body loads a [1024, 4096] block of activations, a [512, 4096] block of quantized weights and a [1, 512]
   block of the bias, contracts the two matrices over their second axes into a zero accumulator and adds the
   bias row to every row of the product. At (p, q) the stored value is Σ_k x[p, k] · w[q, k] + b[0, q]. -/
import proofs.«153563_j7499012899209_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.MatmulBody

open Cert.KernelIdeal Cert.KernelIdeal.Gen Idealize.ShloMosaic Idealize.ShloMosaic.ValueIdx

/-- The left operand is read at the output's row … -/
theorem lhs_row (j : S1024x512.Idx) (q : dot_S1024x4096_S512x4096_S1024x512_1_1_0_0_n_n.contr.Idx) :
    (dot_S1024x4096_S512x4096_S1024x512_1_1_0_0_n_n.lhsIdx j q 0).val = (j 0).val := by
  unfold DotDims.lhsIdx
  rw [dif_neg (show ¬(0 : Fin S1024x4096.rank) ∈ dot_S1024x4096_S512x4096_S1024x512_1_1_0_0_n_n.lhsBatch by decide),
    dif_pos (show (0 : Fin S1024x4096.rank) ∈ dot_S1024x4096_S512x4096_S1024x512_1_1_0_0_n_n.lhsNonContracting by decide)]
  rfl

/-- … and the contracted place; -/
theorem lhs_place (j : S1024x512.Idx) (q : dot_S1024x4096_S512x4096_S1024x512_1_1_0_0_n_n.contr.Idx) :
    (dot_S1024x4096_S512x4096_S1024x512_1_1_0_0_n_n.lhsIdx j q 1).val = (q ⟨0, by decide⟩).val :=
  dot_S1024x4096_S512x4096_S1024x512_1_1_0_0_n_n.lhsIdx_val_of_single rfl j q

/-- the right operand at the output's column, as ITS row, … -/
theorem rhs_row (j : S1024x512.Idx) (q : dot_S1024x4096_S512x4096_S1024x512_1_1_0_0_n_n.contr.Idx) :
    (dot_S1024x4096_S512x4096_S1024x512_1_1_0_0_n_n.rhsIdx j q 0).val = (j 1).val := by
  unfold DotDims.rhsIdx
  rw [dif_neg (show ¬(0 : Fin S512x4096.rank) ∈ dot_S1024x4096_S512x4096_S1024x512_1_1_0_0_n_n.rhsBatch by decide),
    dif_pos (show (0 : Fin S512x4096.rank) ∈ dot_S1024x4096_S512x4096_S1024x512_1_1_0_0_n_n.rhsNonContracting by decide)]
  rfl

/-- … and the same contracted place. -/
theorem rhs_place (j : S1024x512.Idx) (q : dot_S1024x4096_S512x4096_S1024x512_1_1_0_0_n_n.contr.Idx) :
    (dot_S1024x4096_S512x4096_S1024x512_1_1_0_0_n_n.rhsIdx j q 1).val = (q ⟨0, by decide⟩).val :=
  dot_S1024x4096_S512x4096_S1024x512_1_1_0_0_n_n.rhsIdx_val_of_single rfl j q

/-- The product into a zero accumulator at (p, q): the sum over k of a[p, k] · b[q, k]. -/
theorem product_apply (a : FVec Ideal S1024x4096 .bf16) (b : FVec Ideal S512x4096 .bf16) (p : Fin 1024) (q : Fin 512) :
    matmul dot_S1024x4096_S512x4096_S1024x512_1_1_0_0_n_n none a b (constant S1024x512 .f32 0x00000000#32) (ix2 p q)
      = ∑ k : Fin 4096, a (ix2 p k) * b (ix2 q k) := by
  refine (Ideal.matmul_constant_zero_apply dot_S1024x4096_S512x4096_S1024x512_1_1_0_0_n_n none a b (ix2 p q)).trans ?_
  rw [← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx (ix2 p q)
      ((ValueIdx.contrEquiv1 dot_S1024x4096_S512x4096_S1024x512_1_1_0_0_n_n 4096 rfl rfl).symm k) = ix2 p k :=
    funext fun d => Fin.ext (by
      match d with
      | ⟨0, _⟩ => exact lhs_row _ _
      | ⟨1, _⟩ => exact (lhs_place _ _).trans hk)
  have er : dot_S1024x4096_S512x4096_S1024x512_1_1_0_0_n_n.rhsIdx (ix2 p q)
      ((ValueIdx.contrEquiv1 dot_S1024x4096_S512x4096_S1024x512_1_1_0_0_n_n 4096 rfl rfl).symm k) = ix2 q k :=
    funext fun d => Fin.ext (by
      match d with
      | ⟨0, _⟩ => exact rhs_row _ _
      | ⟨1, _⟩ => exact (rhs_place _ _).trans hk)
  rw [el, er]

/-- The bias row broadcast over the rows reads, at (p, q), its entry q. -/
theorem bias_apply (v : FVec Ideal S1x512 .f32) (p : Fin 1024) (q : Fin 512) :
    broadcastTo S1024x512 v broadcasts_S1x512_S1024x512 (ix2 p q) = v (ix2 (0 : Fin 1) q) :=
  broadcastTo_apply v broadcasts_S1x512_S1024x512 (ix2 p q) (ix2 (0 : Fin 1) q) (fun a => match a with
    | ⟨0, _⟩ => by show 0 = if (1 : Nat) = 1 then 0 else p.val; rw [if_pos rfl]
    | ⟨1, _⟩ => by show q.val = if (512 : Nat) = 1 then 0 else q.val; rw [if_neg (by decide)])

/-- The body's stored value: the product plus the broadcast bias (its same-shape views are the identity). -/
theorem pay_eq (v0 : Vec Ideal S1024x4096 .bf16) (v2 : Vec Ideal S512x4096 .bf16) (v5 : Vec Ideal S1x512 .f32) :
    k1_pay1 v0 v2 v5 = addf (matmul (φ₁ := .bf16) (φ₂ := .bf16) dot_S1024x4096_S512x4096_S1024x512_1_1_0_0_n_n none (v0 : FVec Ideal S1024x4096 .bf16)
        (v2 : FVec Ideal S512x4096 .bf16) (constant S1024x512 .f32 0x00000000#32))
      (broadcastTo S1024x512 (v5 : FVec Ideal S1x512 .f32) broadcasts_S1x512_S1024x512) := by
  unfold k1_pay1
  dsimp only
  rw [shapeCast_self, shapeCast_self, shapeCast_self]

/-- THE STORED VALUE at (p, q). -/
theorem pay_apply (v0 : Vec Ideal S1024x4096 .bf16) (v2 : Vec Ideal S512x4096 .bf16) (v5 : Vec Ideal S1x512 .f32)
    (p : Fin 1024) (q : Fin 512) :
    k1_pay1 v0 v2 v5 (ix2 p q)
      = (∑ k : Fin 4096, (v0 : FVec Ideal S1024x4096 .bf16) (ix2 p k) * (v2 : FVec Ideal S512x4096 .bf16) (ix2 q k))
        + (v5 : FVec Ideal S1x512 .f32) (ix2 (0 : Fin 1) q) := by
  rw [pay_eq]
  exact congrArg₂ (· + ·) (product_apply v0 v2 p q) (bias_apply v5 p q)

end Cert.KernelIdeal.MatmulBody

end
-- ==== Proof.MatmulValue.lean ====
/- The product the second kernel leaves in its output array.

   The grid is 8 × 32. At point (a, b) the kernel reads rows 1024·a … of the activations (all 4096 columns), rows
   512·b … of the quantized weights (all 4096 columns) and entries 512·b … of the bias row, and writes back block
   (a, b) of the [8192, 16384] output. Entry (p, q) of that block is Σ_k x[1024·a + p, k] · w[512·b + q, k] + bias[512·b + q]:
   block (a, b) of ONE function of the three arrays. The 8 × 32 blocks cover the output, so it ends as that function. -/
import proofs.«153563_j7499012899209_2_alg».proof.Proof.Gen.KernelIdeal.Frame
import proofs.«153563_j7499012899209_2_alg».proof.Proof.MatmulBody
import Idealize.ShloMosaic.Lib.Pipeline.Value

noncomputable section

namespace Cert.KernelIdeal.MatmulValue

open Cert.KernelIdeal Cert.KernelIdeal.Gen Idealize.ShloMosaic Idealize.ShloMosaic.TcCoe Idealize.SL.Sem
open Idealize.ShloMosaic.ValueIdx
open Idealize.ShloMosaic.Pipeline (Dat)

/-- Rows of X against rows of Q, plus the bias row: `out[i, o] = Σ_k X[i, k] · Q[o, k] + B[0, o]`. -/
def product (X : (⟨2, ![8192, 4096]⟩ : Shape).Idx → EReal) (Q : (⟨2, ![16384, 4096]⟩ : Shape).Idx → EReal)
    (B : (⟨2, ![1, 16384]⟩ : Shape).Idx → EReal) : (⟨2, ![8192, 16384]⟩ : Shape).Idx → EReal :=
  fun j => (∑ k : Fin 4096, X (ix2 (⟨(j 0).val, (j 0).isLt⟩ : Fin 8192) k) * Q (ix2 (⟨(j 1).val, (j 1).isLt⟩ : Fin 16384) k))
    + B (ix2 (0 : Fin 1) (⟨(j 1).val, (j 1).isLt⟩ : Fin 16384))

theorem product_ix2 (X : (⟨2, ![8192, 4096]⟩ : Shape).Idx → EReal) (Q : (⟨2, ![16384, 4096]⟩ : Shape).Idx → EReal)
    (B : (⟨2, ![1, 16384]⟩ : Shape).Idx → EReal) (i : Fin 8192) (o : Fin 16384) :
    product X Q B (ix2 i o) = (∑ k : Fin 4096, X (ix2 i k) * Q (ix2 o k)) + B (ix2 (0 : Fin 1) o) := rfl

variable (V : (c : Dev nD) → (b : Ref sig .tc) → Buf (Elt Ideal) ((c : Thread nD τ).loc b))

theorem zero_offsets : (![0, 0] : Fin 2 → Nat) = fun _ => 0 := funext fun a => by fin_cases a <;> rfl

/-- How the three input windows move with the output window; decided over the 256 points. -/
theorem index_facts : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2) :=
  (by decide +kernel : ∀ t : Fin grid1.N, _)

/-- Every one of the 8 × 32 output blocks is some point's. -/
theorem index_onto : ∀ (a : Fin 8) (b : Fin 32), ∃ t : Fin cfg1.N,
    win1_3.index t (0 : Fin 2) = a.val ∧ win1_3.index t (1 : Fin 2) = b.val :=
  (by decide +kernel : ∀ (a : Fin 8) (b : Fin 32), ∃ t : Fin grid1.N,
    win1_3.index t (0 : Fin 2) = a.val ∧ win1_3.index t (1 : Fin 2) = b.val)

/-- The activations' block at point t, row p, is the activations at the output block's row. -/
theorem x_block (c : Dev nD) (t : Fin cfg1.N) (p : Fin 1024) (q : Fin 512) (k : Fin 4096) :
    iblk1 V c 0 t (ix2 p k) = V c main_v2 (ix2 (⟨win1_3.index t (0 : Fin 2) * 1024 + 1 * p.val,
      ((((cfg1.win 3).blk t).view.emb (ix2 p q)) 0).isLt⟩ : Fin 8192) k) := by
  obtain ⟨e0, e1, e2, e3, e4, e5⟩ := index_facts t
  show V c main_v2 (((cfg1.win 0).blk t).view.emb (ix2 p k)) = _
  refine congrArg (V c main_v2) (funext fun a => Fin.ext ?_)
  match a with
  | ⟨0, _⟩ => show win1_0.index t (0 : Fin 2) * 1024 + 1 * p.val = win1_3.index t (0 : Fin 2) * 1024 + 1 * p.val; rw [e0]
  | ⟨1, _⟩ => show win1_0.index t (1 : Fin 2) * 4096 + 1 * k.val = k.val; rw [e1]; omega

/-- The weights' block at point t, row q, is the weights at the output block's column, as a row. -/
theorem w_block (c : Dev nD) (t : Fin cfg1.N) (p : Fin 1024) (q : Fin 512) (k : Fin 4096) :
    iblk1 V c 1 t (ix2 q k) = V c main_v0 (ix2 (⟨win1_3.index t (1 : Fin 2) * 512 + 1 * q.val,
      ((((cfg1.win 3).blk t).view.emb (ix2 p q)) 1).isLt⟩ : Fin 16384) k) := by
  obtain ⟨e0, e1, e2, e3, e4, e5⟩ := index_facts t
  show V c main_v0 (((cfg1.win 1).blk t).view.emb (ix2 q k)) = _
  refine congrArg (V c main_v0) (funext fun a => Fin.ext ?_)
  match a with
  | ⟨0, _⟩ => show win1_1.index t (0 : Fin 2) * 512 + 1 * q.val = win1_3.index t (1 : Fin 2) * 512 + 1 * q.val; rw [e2]
  | ⟨1, _⟩ => show win1_1.index t (1 : Fin 2) * 4096 + 1 * k.val = k.val; rw [e3]; omega

/-- The bias block at point t, entry q, is the bias at the output block's column. -/
theorem b_block (c : Dev nD) (t : Fin cfg1.N) (p : Fin 1024) (q : Fin 512) :
    iblk1 V c 2 t (ix2 (0 : Fin 1) q) = V c main_v3 (ix2 (0 : Fin 1) (⟨win1_3.index t (1 : Fin 2) * 512 + 1 * q.val,
      ((((cfg1.win 3).blk t).view.emb (ix2 p q)) 1).isLt⟩ : Fin 16384)) := by
  obtain ⟨e0, e1, e2, e3, e4, e5⟩ := index_facts t
  show V c main_v3 (((cfg1.win 2).blk t).view.emb (ix2 (0 : Fin 1) q)) = _
  refine congrArg (V c main_v3) (funext fun a => Fin.ext ?_)
  match a with
  | ⟨0, _⟩ => show win1_2.index t (0 : Fin 2) * 1 + 1 * 0 = 0; rw [e4]
  | ⟨1, _⟩ => show win1_2.index t (1 : Fin 2) * 512 + 1 * q.val = win1_3.index t (1 : Fin 2) * 512 + 1 * q.val; rw [e5]

/-- WHAT POINT t WRITES BACK is block t of the product of the three arrays as the kernel found them. -/
theorem flushed_eq (c : Dev nD) (t : Fin cfg1.N) :
    (dat1 V c).flushed 3 t
      = ((cfg1.win 3).blk t).view.read (Elt Ideal) (product (V c main_v2) (V c main_v0) (V c main_v3)) := by
  show (cfg1.win 3).cut (grid1.coords t) ((dat1 V c).after 3 t) = _
  rw [after1_3]
  unfold out1_3
  rw [View.canon_unit_zero zero_offsets]
  simp only [View.ld_unit_zero (S := S1024x4096) zero_offsets, View.ld_unit_zero (S := S512x4096) zero_offsets,
    View.ld_unit_zero (S := S1x512) zero_offsets]
  funext y
  obtain ⟨p, q, rfl⟩ : ∃ (p : Fin 1024) (q : Fin 512), y = ix2 p q := ⟨y 0, y 1, eq_ix2 y⟩
  show k1_pay1 (iblk1 V c 0 t) (iblk1 V c 1 t) (iblk1 V c 2 t) (ix2 p q)
    = product (V c main_v2) (V c main_v0) (V c main_v3) (((cfg1.win 3).blk t).view.emb (ix2 p q))
  refine (MatmulBody.pay_apply (iblk1 V c 0 t) (iblk1 V c 1 t) (iblk1 V c 2 t) p q).trans ?_
  have hx : ∀ k : Fin 4096, @Eq EReal (iblk1 V c 0 t (ix2 p k))
      (V c main_v2 (ix2 (⟨win1_3.index t (0 : Fin 2) * 1024 + 1 * p.val, ((((cfg1.win 3).blk t).view.emb (ix2 p q)) 0).isLt⟩ : Fin 8192) k)) :=
    fun k => x_block V c t p q k
  have hw : ∀ k : Fin 4096, @Eq EReal (iblk1 V c 1 t (ix2 q k))
      (V c main_v0 (ix2 (⟨win1_3.index t (1 : Fin 2) * 512 + 1 * q.val, ((((cfg1.win 3).blk t).view.emb (ix2 p q)) 1).isLt⟩ : Fin 16384) k)) :=
    fun k => w_block V c t p q k
  have hb : @Eq EReal (iblk1 V c 2 t (ix2 (0 : Fin 1) q))
      (V c main_v3 (ix2 (0 : Fin 1) (⟨win1_3.index t (1 : Fin 2) * 512 + 1 * q.val, ((((cfg1.win 3).blk t).view.emb (ix2 p q)) 1).isLt⟩ : Fin 16384))) :=
    b_block V c t p q
  exact congrArg₂ (fun a b : EReal => a + b)
    (Finset.sum_congr rfl fun k _ => congrArg₂ (fun a b : EReal => a * b) (hx k) (hw k)) hb

/-- An index of the output array is in point t's block iff each coordinate is in the block's range on its axis. -/
theorem mem_block (t : Fin cfg1.N) (j : S8192x16384.Idx) :
    j ∈ ((cfg1.win 3).blk t).view.set ↔ ∀ a : Fin 2, win1_3.index t a * S1024x512.size a ≤ (j a).val
      ∧ (j a).val < win1_3.index t a * S1024x512.size a + S1024x512.size a := by
  show j ∈ ((View.whole main_v4).slice (win1_3.rect t)).set ↔ _
  rw [View.set_slice_whole, Rect.mem_set_unit]
  exact Iff.rfl

/-- Every index of the output lies in the block of the point (row / 1024, column / 512). -/
theorem cover (j : S8192x16384.Idx) : ∃ t : Fin cfg1.N, (cfg1.win 3).flush t = true ∧ j ∈ ((cfg1.win 3).blk t).view.set := by
  have h0 : (j 0).val < 8192 := (j 0).isLt
  have h1 : (j 1).val < 16384 := (j 1).isLt
  obtain ⟨t, ht0, ht1⟩ := index_onto ⟨(j 0).val / 1024, by omega⟩ ⟨(j 1).val / 512, by omega⟩
  have ht0' : win1_3.index t (0 : Fin 2) = (j 0).val / 1024 := ht0
  have ht1' : win1_3.index t (1 : Fin 2) = (j 1).val / 512 := ht1
  refine ⟨t, flush1_3 t, ?_⟩
  rw [mem_block]
  intro a
  match a with
  | ⟨0, _⟩ =>
    show win1_3.index t (0 : Fin 2) * 1024 ≤ (j 0).val ∧ (j 0).val < win1_3.index t (0 : Fin 2) * 1024 + 1024
    rw [ht0']; omega
  | ⟨1, _⟩ =>
    show win1_3.index t (1 : Fin 2) * 512 ≤ (j 1).val ∧ (j 1).val < win1_3.index t (1 : Fin 2) * 512 + 512
    rw [ht1']; omega

/-- THE OUTPUT ARRAY after the second kernel: the product of the three arrays as the kernel found them. -/
theorem final (c : Dev nD) : (dat1 V c).arrAt 3 cfg1.N = product (V c main_v2) (V c main_v0) (V c main_v3) :=
  (dat1 V c).arrAt_eq_of_cover 3 (product (V c main_v2) (V c main_v0) (V c main_v3)) (fun t _ => flushed_eq V c t) cover

end Cert.KernelIdeal.MatmulValue

end
-- ==== Proof.KernelRun.lean ====
/- The kernel program's run with its result read.

   The program is four segments: the quantization kernel, a stretch of host operations (the activations' change
   of float format, which is the identity on the extended reals, their view as [8192, 4096], the bias's view as
   [1, 16384]), the matmul kernel, and one last host operation (the product viewed as [4, 2048, 16384]). The
   launch over these segments ends with every buffer at the contents the segments leave, one after the other;
   here the result buffer is read as well as the arguments. Reading the contents back through the segments:
   the result at (b, t, o) is the product at (2048·b + t, o), whose activations' row 2048·b + t is the
   argument's (b, t, ·), whose weights are the first kernel's output, the weight argument quantized row by row,
   and whose bias entry (0, o) is the argument's o. -/
import proofs.«153563_j7499012899209_2_alg».proof.Proof.Gen.KernelIdeal.Frame
import proofs.«153563_j7499012899209_2_alg».proof.Proof.QuantValue
import proofs.«153563_j7499012899209_2_alg».proof.Proof.MatmulValue
import proofs.«153563_j7499012899209_2_alg».proof.Proof.Spec
import Idealize.ShloMosaic.Lib.StableHlo.Run
import Idealize.ShloMosaic.Lib.Pipeline.Value

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Launch

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at what the last segment
    leaves there, and the argument arrays end as launched. -/
theorem run_result : θ_run defs (onTc (τ := τ) (main (F := F))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Launch

/-! ## The result, read back through the segments -/

section Value

open Idealize.ShloMosaic.ValueIdx Cert.Ternary

variable (m : (ℓ : Loc nD τ sig) → Buf (Elt Ideal) ℓ) (ρ : Dev nD → PrngReg)

/-- After the first kernel its output array holds the weight argument quantized row by row. -/
theorem weights_after_quantize (c : Dev nD) :
    W1 m ρ c (Proc.devRef .tc main_v0) = quantThreshold (m ((c : Thread nD τ).loc main_arg1)) :=
  (W1_arr m ρ c 1).trans (QuantValue.final (V0 m ρ) c)

/-- The host stretch between the kernels leaves the quantized weights alone, -/
theorem weights_at_matmul (c : Dev nD) :
    V2 m ρ c main_v0 = quantThreshold (m ((c : Thread nD τ).loc main_arg1)) := by
  show StableHlo.after hostOps1 (W1 m ρ c) (Proc.devRef .tc main_v0) = _
  after_results
  exact weights_after_quantize m ρ c

/-- gives the activations in the lower float format, viewed as [8192, 4096], -/
theorem acts_at_matmul (c : Dev nD) :
    V2 m ρ c main_v2 = shapeCast S8192x4096
      (truncf (F := Ideal) (s := S4x2048x4096) (φ := .f32) .bf16 (m ((c : Thread nD τ).loc main_arg0)) bitsLt_bf16_f32)
      shapeCasts_S4x2048x4096_S8192x4096 := by
  show StableHlo.after hostOps1 (W1 m ρ c) (Proc.devRef .tc main_v2) = _
  after_results
  rw [W1_of_ne m ρ c main_arg0 (by decide)]
  rfl

/-- and the bias viewed as [1, 16384]. -/
theorem bias_at_matmul (c : Dev nD) :
    V2 m ρ c main_v3 = shapeCast S1x16384 (m ((c : Thread nD τ).loc main_arg2) : S16384.Idx → EReal)
      shapeCasts_S16384_S1x16384 := by
  show StableHlo.after hostOps1 (W1 m ρ c) (Proc.devRef .tc main_v3) = _
  after_results
  rw [W1_of_ne m ρ c main_arg2 (by decide)]
  rfl

/-- THE RESULT: the linear layer over the threshold-form quantization of the weight argument. -/
theorem result_value (c : Dev nD) :
    W4 m ρ c (Proc.devRef .tc main_v5)
      = linear (m ((c : Thread nD τ).loc main_arg0)) (quantThreshold (m ((c : Thread nD τ).loc main_arg1)))
          (m ((c : Thread nD τ).loc main_arg2)) := by
  have hprod : W3 m ρ c (Proc.devRef .tc main_v4)
      = MatmulValue.product (V2 m ρ c main_v2) (V2 m ρ c main_v0) (V2 m ρ c main_v3) :=
    (W3_arr m ρ c 3).trans (MatmulValue.final (V2 m ρ) c)
  have hres : W4 m ρ c (Proc.devRef .tc main_v5)
      = shapeCast S4x2048x16384 (W3 m ρ c (Proc.devRef .tc main_v4) : S8192x16384.Idx → EReal)
          shapeCasts_S8192x16384_S4x2048x16384 := by
    show StableHlo.after hostOps2 (W3 m ρ c) (Proc.devRef .tc main_v5) = _
    after_results
    rfl
  rw [hres, hprod, acts_at_matmul, weights_at_matmul, bias_at_matmul]
  funext j
  obtain ⟨b, t, o, rfl⟩ : ∃ (b : Fin 4) (t : Fin 2048) (o : Fin 16384), j = ix3 b t o := ⟨j 0, j 1, j 2, eq_ix3 j⟩
  have hb := b.isLt
  have ht := t.isLt
  rw [linear_ix3]
  refine (shapeCast_apply _ shapeCasts_S8192x16384_S4x2048x16384 (ix3 b t o)
    (ix2 (⟨b.val * 2048 + t.val, by omega⟩ : Fin 8192) o) (by
      rewrite [Shape.rowMajor_val_two, Shape.rowMajor_val_three]
      rfl)).trans ?_
  rw [MatmulValue.product_ix2]
  refine congrArg₂ (fun x y : EReal => x + y)
    (Finset.sum_congr rfl fun k _ => congrArg (fun x : EReal => x * quantThreshold (m ((c : Thread nD τ).loc main_arg1)) (ix2 o k)) ?_) ?_
  · exact shapeCast_apply _ shapeCasts_S4x2048x4096_S8192x4096 (ix2 (⟨b.val * 2048 + t.val, by omega⟩ : Fin 8192) k) (ix3 b t k) (by
      rewrite [Shape.rowMajor_val_three, Shape.rowMajor_val_two]
      rfl)
  · exact shapeCast_apply _ shapeCasts_S16384_S1x16384 (ix2 (0 : Fin 1) o) (ix1 o) (by
      rewrite [Shape.rowMajor_val_one, Shape.rowMajor_val_two]
      show o.val = 0 * 16384 + o.val
      omega)

/-- The run, with the result named: the linear layer over the quantized weights, the arguments unchanged. -/
theorem run : θ_run defs (onTc (τ := τ) (main (F := Ideal))) ⟨m, fun _ => 0, ρ⟩ (fun r => ∀ c : Dev nD,
      r.2.mem ((c.tc : Thread nD τ).loc main_v5)
        = linear (m ((c : Thread nD τ).loc main_arg0)) (quantThreshold (m ((c : Thread nD τ).loc main_arg1)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_value m ρ c), (h c).2⟩) (run_result m ρ)

end Value

end Cert.KernelIdeal.KernelRun

end
-- ==== Proof.Finite.lean ====
/- From the precondition to "every weight is a real number".

   The precondition is the conjunction, over the three arguments, of "all entries have absolute value below +∞".
   On the extended reals |x| < +∞ excludes exactly the two infinities, so each entry is a real number. Only the
   weight matrix's conjunct is used: the law that joins the two programs needs real weights and nothing else. -/
import proofs.«153563_j7499012899209_2_alg».proof.Pre_finite_inputs
import proofs.«153563_j7499012899209_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- The pattern of +∞ denotes the top of the extended reals. -/
theorem ofBits_inf : Ideal.ofBits .f32 0x7F800000#32 = ⊤ := by
  simp [Ideal.ofBits, Ideal.ieee]

/-- An extended real whose absolute value is strictly below +∞ is a real number. -/
theorem real_of_abs_lt_top (x : EReal) (h : Ideal.cmp .olt (max x (-x)) (Ideal.ofBits .f32 0x7F800000#32) = 1#1) :
    ∃ a : ℝ, x = (a : EReal) := by
  rw [ofBits_inf] at h
  induction x using EReal.rec with
  | bot => exfalso; simp [Ideal.cmp] at h
  | top => exfalso; simp [Ideal.cmp] at h
  | coe a => exact ⟨a, rfl⟩

/-- Under the precondition every entry of the weight argument is a real number. -/
theorem weights_real (x0 : FVec Ideal S4x2048x4096 .f32) (x1 : FVec Ideal S16384x4096 .f32) (x2 : FVec Ideal S16384 .f32)
    (h : fn (F := Ideal) x0 x1 x2 = fun _ => 1#1) (j : S16384x4096.Idx) : ∃ a : ℝ, x1 j = (a : EReal) := by
  have h0 := congrFun h ValueIdx.ix0
  dsimp only [fn] at h0
  obtain ⟨h01, -⟩ := IntOp.andi_eq_one.1 h0
  obtain ⟨-, h1⟩ := IntOp.andi_eq_one.1 h01
  have hj := Host.reduce_andi_all _ _ _ _ _ h1 j
  refine real_of_abs_lt_top (x1 j) ?_
  have hb : broadcastInDim S16384x4096 ![] bcast_S_S16384x4096 (constant (F := Ideal) S_ .f32 0x7F800000#32) j
      = Ideal.ofBits .f32 0x7F800000#32 :=
    broadcastInDim_apply _ bcast_S_S16384x4096 _ j ValueIdx.ix0 (fun a => a.elim0)
  rw [← hb]
  exact hj

end Cert.Pre_finite_inputs.Finite

end
-- ==== Proof.lean ====
/- A linear layer over groupwise ternary-quantized weights, two ways.

   Both programs take activations x : [4, 2048, 4096], weights w : [16384, 4096] and a bias : [16384], quantize
   every group of 128 consecutive weights of a row to {-1, 0, 1} times the group's scale (the mean absolute value,
   clamped below), and return x · qᵀ + bias. The kernel program does it in two kernels (quantize 256 rows at a time;
   multiply in 1024 × 512 tiles) and chooses a weight's level by comparing it with half the scale. The reference
   divides the weight by the scale, compares the ratio with one half, and passes the quantized matrix through
   w + (q − w).

   On the extended reals with exact arithmetic the two agree whenever the weights are real numbers: the scale is
   then a positive real, so "w / s > 1/2" is "w > s / 2" and "w / s < −1/2" is "w < 0 − s / 2", and w + (q − w) = q.
   The precondition (every input finite) supplies exactly that. The sums over a group and over the contraction
   axis are spelt the same way on both sides and are not rearranged.

   Proof/Spec.lean states the function and the law; Proof/RefValue.lean reads the reference as it;
   Proof/QuantBody.lean, Proof/QuantValue.lean, Proof/MatmulBody.lean, Proof/MatmulValue.lean read the two kernels'
   output arrays; Proof/KernelRun.lean reads the kernel program's result through its four segments;
   Proof/Finite.lean gets "the weights are real" from the precondition. -/
import proofs.«153563_j7499012899209_2_alg».proof.Defs
import proofs.«153563_j7499012899209_2_alg».proof.Proof.Gen.Kernel
import proofs.«153563_j7499012899209_2_alg».proof.Proof.Gen.Kernel.Skeleton
import proofs.«153563_j7499012899209_2_alg».proof.Proof.Gen.Kernel.Launch
import proofs.«153563_j7499012899209_2_alg».proof.Proof.Gen.Kernel.Points
import proofs.«153563_j7499012899209_2_alg».proof.Proof.Gen.Kernel.Frame
import proofs.«153563_j7499012899209_2_alg».proof.Proof.Gen.KernelIdeal
import proofs.«153563_j7499012899209_2_alg».proof.Proof.Gen.KernelIdeal.Skeleton
import proofs.«153563_j7499012899209_2_alg».proof.Proof.Gen.KernelIdeal.Launch
import proofs.«153563_j7499012899209_2_alg».proof.Proof.Gen.KernelIdeal.Points
import proofs.«153563_j7499012899209_2_alg».proof.Proof.Gen.KernelIdeal.Frame
import proofs.«153563_j7499012899209_2_alg».proof.Proof.Gen.ReferenceIdeal
import proofs.«153563_j7499012899209_2_alg».proof.Proof.Gen.Pre_finite_inputs
import proofs.«153563_j7499012899209_2_alg».proof.Proof.Gen.ReferenceIdeal.Run
import proofs.«153563_j7499012899209_2_alg».proof.Proof.Gen.ReferenceIdeal.Read
import proofs.«153563_j7499012899209_2_alg».proof.Proof.Spec
import proofs.«153563_j7499012899209_2_alg».proof.Proof.RefValue
import proofs.«153563_j7499012899209_2_alg».proof.Proof.KernelRun
import proofs.«153563_j7499012899209_2_alg».proof.Proof.Finite
import Idealize.ShloMosaic.Adequacy
import Idealize.ShloMosaic.Init

noncomputable section

namespace Cert.Proof

open Idealize.ShloMosaic Idealize.ShloMosaic.TcCoe Idealize.SL.Sem Cert.Ternary

/-- The word-level kernel program runs and leaves its arguments unchanged. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- And the reference: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments, with finite inputs, both programs end with the linear layer over
    the threshold-form quantization of the weights: the kernel program by its run, the reference by its run,
    its reading as the ratio form, and the law between the two forms on real weights. -/
theorem algebraic : Cert.algebraic_KernelIdeal_ReferenceIdeal := by
  intro m ρ m' ρ' hpre hagree
  refine ⟨fun c => linear (m ((c : Thread Cert.KernelIdeal.nD Cert.KernelIdeal.τ).loc Cert.KernelIdeal.main_arg0))
      (quantThreshold (m ((c : Thread Cert.KernelIdeal.nD Cert.KernelIdeal.τ).loc Cert.KernelIdeal.main_arg1)))
      (m ((c : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.result_eq,
    (hagree c).1, (hagree c).2.1, (hagree c).2.2]
  rw [quantRatio_eq_quantThreshold _ (fun j => Cert.Pre_finite_inputs.Finite.weights_real _ _ _ (hpre c) j)]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
